-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000x32 : Shape := ⟨2, ![3200000, 32]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x32 : S_.BroadcastsInDim S3200000x32 (![] : Fin 0 → Fin S3200000x32.rank)
  reducesTo_S3200000x32_S_d0_1 : S3200000x32.ReducesTo [0, 1] S_

variable [Facts]

def fn {F : FTy → Type} [FloatOps F] (main_arg0 : FVec F S100000x256 .f32) (main_arg1 : IVec S2x3200000 32) (main_arg2 : FVec F S3200000x32 .f32) (main_arg3 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x32 .f32 := Host.absf main_arg2
  let main_cst_0 : FVec F S_ .f32 := constant S_ .f32 0x7F800000#32
  let main_v5 : FVec F S3200000x32 .f32 := broadcastInDim S3200000x32 ![] bcast_S_S3200000x32 main_cst_0
  let main_v6 : IVec S3200000x32 1 := cmpf .olt main_v4 main_v5
  let main_c_1 : IVec S_ 1 := constantI S_ 1 1#1
  let main_v7 : IVec S_ 1 := (fun x v => Host.reduce IntOp.andi x v reducesTo_S3200000x32_S_d0_1 h_S_) main_v6 main_c_1
  let main_v8 : IVec S_ 1 := andi main_v3 main_v7
  main_v8
-- ==== Kernel.lean ====
abbrev S100000x256 : Shape := ⟨2, ![100000, 256]⟩
abbrev S2x3200000 : Shape := ⟨2, ![2, 3200000]⟩
abbrev S3200000x32 : Shape := ⟨2, ![3200000, 32]⟩
abbrev S100000 : Shape := ⟨1, ![100000]⟩
abbrev S100128x256 : Shape := ⟨2, ![100128, 256]⟩
abbrev S5000x256 : Shape := ⟨2, ![5000, 256]⟩
abbrev S800000x128 : Shape := ⟨2, ![800000, 128]⟩
abbrev S825000x128 : Shape := ⟨2, ![825000, 128]⟩
abbrev S5000x128 : Shape := ⟨2, ![5000, 128]⟩
abbrev S3300000x32 : Shape := ⟨2, ![3300000, 32]⟩
abbrev S_ : Shape := ⟨0, ![]⟩
abbrev S1x100000 : Shape := ⟨2, ![1, 100000]⟩
abbrev S2x100000 : Shape := ⟨2, ![2, 100000]⟩
abbrev S2x3300000 : Shape := ⟨2, ![2, 3300000]⟩
abbrev S128 : Shape := ⟨1, ![128]⟩
abbrev S100128 : Shape := ⟨1, ![100128]⟩

abbrev nBuf : Space → Nat
  | .hbm => 18
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x32, .f32⟩
  | .hbm, ⟨3, _⟩ => ⟨S100000, .i32⟩
  | .hbm, ⟨4, _⟩ => ⟨S100128x256, .f32⟩
  | .hbm, ⟨5, _⟩ => ⟨S800000x128, .f32⟩
  | .hbm, ⟨6, _⟩ => ⟨S825000x128, .f32⟩
  | .hbm, ⟨7, _⟩ => ⟨S3300000x32, .f32⟩
  | .hbm, ⟨8, _⟩ => ⟨S100000, .i32⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S1x100000, .i32⟩
  | .hbm, ⟨13, _⟩ => ⟨S1x100000, .i32⟩
  | .hbm, ⟨14, _⟩ => ⟨S2x100000, .i32⟩
  | .hbm, ⟨15, _⟩ => ⟨S2x3300000, .i32⟩
  | .hbm, ⟨16, _⟩ => ⟨S128, .i32⟩
  | .hbm, ⟨17, _⟩ => ⟨S100128, .i32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c20_i32_0 : BitVec 32 := 20#32
  let v3 : BitVec 1 := Scalar.cmpi .sge arg0 c20_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![165], ![false]⟩

def k1_cond1 (i : grid1.Coords) : BitVec 1 :=
  let arg0 : BitVec 32 := BitVec.ofNat 32 (i 0).val
  let c160_i32 : BitVec 32 := 160#32
  let v0 : BitVec 1 := Scalar.cmpi .slt arg0 c160_i32
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let c160_i32_0 : BitVec 32 := 160#32
  let v3 : BitVec 1 := Scalar.cmpi .sge arg0 c160_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c159_i32 : BitVec 32 := 159#32
  let v0 : BitVec 32 := Scalar.minsi arg0 c159_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  shapeCasts_S3200000x32_S800000x128 : S3200000x32.ShapeCasts S800000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S825000x128_S3300000x32 : S825000x128.ShapeCasts S3300000x32
  bcast_S_S100000 : S_.BroadcastsInDim S100000 (![] : Fin 0 → Fin S100000.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  concatenates_S100000_S128_S100128_d0 : Shape.Concatenates [S100000, S128] S100128 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S5000x256.size a < S100128x256.size a
  hwx0_1 : ∀ i : grid0.Coords, EltTy.bits .f32 = 32 ∨ (Rect.unit (s := S100128x256) (fun a => cc0_transform_1 i a * S5000x256.size a) (fun a => (Pipeline.Clip.of (cc0_transform_1 i a) (S5000x256.size a) (S100128x256.size a)).extent (S5000x256.size a)) fun a => Pipeline.Clip.inb (Pipeline.Clip.ok_of (hstart0_1 i a))).WholeWords (EltTy.packing .f32)
  hwxs0_1 : ∀ i : grid0.Coords, EltTy.bits .f32 = 32 ∨ (Rect.unit (s := S5000x256) (fun _ => 0) (fun a => (Pipeline.Clip.of (cc0_transform_1 i a) (S5000x256.size a) (S100128x256.size a)).extent (S5000x256.size a)) fun a => (Nat.zero_add _).trans_le (Pipeline.Clip.extent_le (Pipeline.Clip.ok_of (hstart0_1 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S825000x128.size a
  hwx1_1 : ∀ i : grid1.Coords, EltTy.bits .f32 = 32 ∨ (Rect.block (s := S825000x128) S5000x128.size (cc1_transform_1 i) (hinb1_1 i)).WholeWords (EltTy.packing .f32)

variable [Facts₀]

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S5000x256.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond1 i == 1#1) && !(k1_cond2 i == 1#1) | ⟨_ + 2, h⟩ => absurd h (Nat.not_lt.2 (Nat.le_add_left _ _))

class Facts : Prop extends Facts₀ where

variable [Facts]
-- ==== ReferenceIdeal.lean ====
abbrev S100000x256 : Shape := ⟨2, ![100000, 256]⟩
abbrev S2x3200000 : Shape := ⟨2, ![2, 3200000]⟩
abbrev S3200000x32 : Shape := ⟨2, ![3200000, 32]⟩
abbrev S100000 : Shape := ⟨1, ![100000]⟩
abbrev S_ : Shape := ⟨0, ![]⟩
abbrev S128x256 : Shape := ⟨2, ![128, 256]⟩
abbrev S100128x256 : Shape := ⟨2, ![100128, 256]⟩
abbrev S1x100000 : Shape := ⟨2, ![1, 100000]⟩
abbrev S2x100000 : Shape := ⟨2, ![2, 100000]⟩
abbrev S2x3300000 : Shape := ⟨2, ![2, 3300000]⟩
abbrev S100000x32 : Shape := ⟨2, ![100000, 32]⟩
abbrev S3300000x32 : Shape := ⟨2, ![3300000, 32]⟩
abbrev S128 : Shape := ⟨1, ![128]⟩
abbrev S100128 : Shape := ⟨1, ![100128]⟩

abbrev nBuf : Space → Nat
  | .hbm => 20
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x32, .f32⟩
  | .hbm, ⟨3, _⟩ => ⟨S100000, .i32⟩
  | .hbm, ⟨4, _⟩ => ⟨S_, .f32⟩
  | .hbm, ⟨5, _⟩ => ⟨S128x256, .f32⟩
  | .hbm, ⟨6, _⟩ => ⟨S100128x256, .f32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S1x100000, .i32⟩
  | .hbm, ⟨12, _⟩ => ⟨S1x100000, .i32⟩
  | .hbm, ⟨13, _⟩ => ⟨S2x100000, .i32⟩
  | .hbm, ⟨14, _⟩ => ⟨S2x3300000, .i32⟩
  | .hbm, ⟨15, _⟩ => ⟨S_, .f32⟩
  | .hbm, ⟨16, _⟩ => ⟨S100000x32, .f32⟩
  | .hbm, ⟨17, _⟩ => ⟨S3300000x32, .f32⟩
  | .hbm, ⟨18, _⟩ => ⟨S128, .i32⟩
  | .hbm, ⟨19, _⟩ => ⟨S100128, .i32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S128x256 : S_.BroadcastsInDim S128x256 (![] : Fin 0 → Fin S128x256.rank)
  concatenates_S100000x256_S128x256_S100128x256_d0 : Shape.Concatenates [S100000x256, S128x256] S100128x256 0
  bcast_S_S100000 : S_.BroadcastsInDim S100000 (![] : Fin 0 → Fin S100000.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  bcast_S_S100000x32 : S_.BroadcastsInDim S100000x32 (![] : Fin 0 → Fin S100000x32.rank)
  concatenates_S3200000x32_S100000x32_S3300000x32_d0 : Shape.Concatenates [S3200000x32, S100000x32] S3300000x32 0
  concatenates_S100000_S128_S100128_d0 : Shape.Concatenates [S100000, S128] S100128 0

variable [Facts₀]

class Facts : Prop extends Facts₀ where

variable [Facts]
-- ==== Proof.LibPadRows.lean ====
/-
  Rows followed by constant rows, for any extents.

  `padRows z n' x` is the rank-2 array of `n'` rows whose first rows are the rows of `x` and whose remaining
  rows hold the constant `z` everywhere. A concatenation along the rows of `x` with a block all of whose
  elements are `z` is that array (`concatenate_rows_const`): a row of `x` is read from the first piece at the
  same place, a later row from the second piece, whose every element is `z`.
-/
import Idealize.ShloMosaic.Lib.ValueIdx
import Idealize.ShloMosaic.Lib.Pipeline.Value

noncomputable section

namespace Cert.PadSpec

open Idealize.ShloMosaic Idealize.ShloMosaic.ValueIdx

/-- The rows of `x` followed by rows of the constant `z`, `n'` rows in all. -/
def padRows {α : Type} (z : α) {n c : Nat} (n' : Nat) (x : (⟨2, ![n, c]⟩ : Shape).Idx → α) :
    (⟨2, ![n', c]⟩ : Shape).Idx → α :=
  fun i => if h : (i 0).val < n then x (ix2 ⟨(i 0).val, h⟩ (i 1)) else z

/-- At a row of the operand the padded array is the operand. -/
theorem padRows_of_lt {α : Type} (z : α) {n c : Nat} (n' : Nat) (x : (⟨2, ![n, c]⟩ : Shape).Idx → α)
    (p : Fin n') (q : Fin c) (h : p.val < n) : padRows z n' x (ix2 p q) = x (ix2 ⟨p.val, h⟩ q) := by
  unfold padRows; exact dif_pos h

/-- Past the operand's rows the padded array is the constant. -/
theorem padRows_of_ge {α : Type} (z : α) {n c : Nat} (n' : Nat) (x : (⟨2, ![n, c]⟩ : Shape).Idx → α)
    (p : Fin n') (q : Fin c) (h : n ≤ p.val) : padRows z n' x (ix2 p q) = z := by
  unfold padRows; exact dif_neg (Nat.not_lt.2 h)

/-- A two-piece concatenation along the rows whose second piece is constantly `z` is the first piece's rows
    followed by rows of `z`, for any extents `n + k = n'` and any width. -/
theorem concatenate_rows_const {α : Type} (z : α) {n k c n' : Nat} (hn : n + k = n')
    (x : (⟨2, ![n, c]⟩ : Shape).Idx → α) (y : (⟨2, ![k, c]⟩ : Shape).Idx → α) (hy : ∀ i, y i = z)
    (h : Shape.Concatenates [(⟨2, ![n, c]⟩ : Shape), ⟨2, ![k, c]⟩] ⟨2, ![n', c]⟩ (0 : Fin 2)) :
    concatenate (⟨2, ![n', c]⟩ : Shape) (0 : Fin 2) [⟨⟨2, ![n, c]⟩, x⟩, ⟨⟨2, ![k, c]⟩, y⟩] h = padRows z n' x := by
  funext j
  obtain ⟨p, q, rfl⟩ : ∃ (p : Fin n') (q : Fin c), j = ix2 p q := ⟨j 0, j 1, eq_ix2 j⟩
  have hp := p.isLt
  rcases Nat.lt_or_ge p.val n with hlt | hge
  · rw [padRows_of_lt z n' x p q hlt]
    exact concatenate_pair_apply_left (t := ⟨2, ![n', c]⟩) (s₁ := ⟨2, ![n, c]⟩) (s₂ := ⟨2, ![k, c]⟩) (0 : Fin 2) x y h (ix2 p q) rfl
      (ix2 ⟨p.val, hlt⟩ q) (fun b => match b with | ⟨0, _⟩ => rfl | ⟨1, _⟩ => rfl)
  · rw [padRows_of_ge z n' x p q hge]
    refine (concatenate_pair_apply_right (t := ⟨2, ![n', c]⟩) (s₁ := ⟨2, ![n, c]⟩) (s₂ := ⟨2, ![k, c]⟩) (0 : Fin 2) x y h (ix2 p q) rfl rfl
      (ix2 (⟨p.val - n, by omega⟩ : Fin k) q) (fun b hb => ?_) ?_).trans (hy _)
    · match b with
      | ⟨0, _⟩ => exact absurd rfl hb
      | ⟨1, _⟩ => rfl
    · show p.val - n + n = p.val; omega

end Cert.PadSpec

end
-- ==== Proof.PadSpec.lean ====
/-
  Padding through a lane-dense view.

  The kernel pads the edge attributes through a view in which four consecutive rows of width 32 are one row
  of width 128. Since 3200000 = 4 · 800000, a packed row is either four rows of the operand or four appended
  rows, so padding the packed view and unpacking is padding the operand itself: both sides read the same
  row-major position.
-/
import proofs.«128870_j19146964205613_2_alg».proof.Proof.LibPadRows

noncomputable section

namespace Cert.PadSpec

open Idealize.ShloMosaic Idealize.ShloMosaic.ValueIdx

/-- Packing four rows of width 32 into one of width 128, padding the packed rows, and unpacking again is
    padding the rows themselves: element `(p, q)` of the result sits at row-major position `32 p + q`, that is
    at packed row `p / 4`, lane `32 (p % 4) + q`; the packed row is a row of the operand exactly when `p` is,
    and there it holds the operand's element at the same row-major position. -/
theorem unpack_padRows_pack {α : Type} (z : α) (x : (⟨2, ![3200000, 32]⟩ : Shape).Idx → α)
    (h1 : (⟨2, ![3200000, 32]⟩ : Shape).ShapeCasts ⟨2, ![800000, 128]⟩)
    (h2 : (⟨2, ![825000, 128]⟩ : Shape).ShapeCasts ⟨2, ![3300000, 32]⟩) :
    shapeCast ⟨2, ![3300000, 32]⟩ (padRows z 825000 (shapeCast ⟨2, ![800000, 128]⟩ x h1)) h2
      = padRows z 3300000 x := by
  funext j
  obtain ⟨p, q, rfl⟩ : ∃ (p : Fin 3300000) (q : Fin 32), j = ix2 p q := ⟨j 0, j 1, eq_ix2 j⟩
  have hp := p.isLt
  have hq := q.isLt
  have hr : p.val / 4 < 825000 := by omega
  have hl : p.val % 4 * 32 + q.val < 128 := by omega
  refine (shapeCast_apply _ h2 (ix2 p q) (ix2 ⟨p.val / 4, hr⟩ ⟨p.val % 4 * 32 + q.val, hl⟩) ?_).trans ?_
  · rw [Shape.rowMajor_val_two, Shape.rowMajor_val_two]
    show p.val / 4 * 128 + (p.val % 4 * 32 + q.val) = p.val * 32 + q.val
    omega
  by_cases hlt : p.val < 3200000
  · rw [padRows_of_lt z 825000 _ ⟨p.val / 4, hr⟩ ⟨p.val % 4 * 32 + q.val, hl⟩ (by show p.val / 4 < 800000; omega),
      padRows_of_lt z 3300000 x p q hlt]
    refine shapeCast_apply x h1 _ (ix2 ⟨p.val, hlt⟩ q) ?_
    rw [Shape.rowMajor_val_two, Shape.rowMajor_val_two]
    show p.val * 32 + q.val = p.val / 4 * 128 + (p.val % 4 * 32 + q.val)
    omega
  · rw [padRows_of_ge z 825000 _ ⟨p.val / 4, hr⟩ ⟨p.val % 4 * 32 + q.val, hl⟩ (by show 800000 ≤ p.val / 4; omega),
      padRows_of_ge z 3300000 x p q (by omega)]

end Cert.PadSpec

end
-- ==== Proof.NamedRun.lean ====
/-
  The idealized kernel's run with its final memory named.

  @main is four segments: the first copy-or-zero region, one reshape, the second copy-or-zero region, and
  the integer glue with the closing reshape. The contents of the TensorCore's buffers at the four segment
  boundaries are a fold from the launch memory (`Gen.W0` … `Gen.W4`): a host stretch applies its operations,
  a region leaves each of its arrays at what its write-backs leave and every other buffer untouched.
  Every weakly fair execution terminates without a fault, and in the final state EVERY buffer that
  outlives the regions holds the last boundary's contents `Gen.W4` — the results as well as the arguments.
-/
import proofs.«128870_j19146964205613_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting,
    and the final state has every unscoped buffer `b` of every core at `Gen.W4 m ρ c b`: the segments are
    chained boundary to boundary, the last thread state holds all those buffers at once, and the final
    memory is read against it. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.Named

end
-- ==== Proof.NodeRegion.lean ====
/-
  What the first copy-or-zero region leaves in its output array, as one function of its input array.

  The region walks 21 blocks of 5000 rows over an output of 100128 rows. At a point before the 20th the body
  stores the input block it loaded (the clamped input index `min t 19` is `t` itself there); at the 20th it
  stores the zero block. Output block `t` starts at row `5000 t`; the first twenty blocks are whole, and the
  last one overhangs the array, so its write-back moves only its leading 128 rows, onto rows
  100000 … 100127. What point `t` writes back is therefore block `t`, cut at the array's end, of the
  operand's rows followed by zero rows; the cut blocks tile all 100128 rows, and the array ends holding
  exactly that padded array.
-/
import proofs.«128870_j19146964205613_2_alg».proof.Proof.Gen.KernelIdeal.Frame
import proofs.«128870_j19146964205613_2_alg».proof.Proof.PadSpec
import Idealize.ShloMosaic.Lib.Pipeline.Value
import Idealize.ShloMosaic.Lib.Tactic

set_option maxRecDepth 16384

noncomputable section

namespace Cert.KernelIdeal.NodeRegion

open Cert.KernelIdeal Cert.KernelIdeal.Gen Cert.PadSpec
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The word the appended rows hold: `+0.0`. -/
abbrev zero : F .f32 := Scalar.ofBits .f32 0x00000000#32

/-- Before the boundary the body leaves the input block in the output's staging buffer: its one store
    covers the buffer and its payload is the whole-buffer load. -/
theorem copied (c : Dev nD) (i : grid0.Coords) (a1 : Memref sig .tc .vmem S5000x256 .f32) (h1 : a1.IsWhole)
    (a2 : Memref sig .tc .vmem S5000x256 .f32) (h2 : a2.IsWhole) (hc0 : cond0_0 i) (hc1 : ¬cond0_1 i)
    (x : Vec F S5000x256 .f32) : out0_A_1 c i a1 h1 a2 h2 hc0 hc1 x = x := by
  unfold out0_A_1
  rw [View.read_writes_eq_canon _ _ _ (cover0_A_1 c i a1 h1 a2 h2 hc0 hc1 x)]
  unfold kernelRun0_A
  dsimp only
  rw [View.canon_unit_zero hz]
  simp only [View.readAt_eq_ld, h1.read_unread, View.ld_unit_zero (S := S5000x256) hz]

/-- At the last point the body leaves the zero block. -/
theorem zeroed (c : Dev nD) (i : grid0.Coords) (a1 : Memref sig .tc .vmem S5000x256 .f32) (h1 : a1.IsWhole)
    (a2 : Memref sig .tc .vmem S5000x256 .f32) (h2 : a2.IsWhole) (hc0 : ¬cond0_0 i) (hc1 : cond0_1 i)
    (x : Vec F S5000x256 .f32) : out0_B_1 c i a1 h1 a2 h2 hc0 hc1 x = fun _ => zero := by
  unfold out0_B_1
  rw [View.read_writes_eq_canon _ _ _ (cover0_B_1 c i a1 h1 a2 h2 hc0 hc1 x)]
  unfold kernelRun0_B
  dsimp only
  rw [View.canon_unit_zero hz]
  rfl

/-- The index maps and the cut over the grid: output block `t` is block `t`; the input block is block
    `min t 19`; neither moves along the lanes; the write-back moves 5000 rows before the last point and 128 at
    it, and all 256 lanes. -/
theorem idx_facts : ∀ t : Fin cfg0.N, win0_1.index t (0 : Fin 2) = t.val ∧ win0_1.index t (1 : Fin 2) = 0
    ∧ win0_0.index t (0 : Fin 2) = min t.val 19 ∧ win0_0.index t (1 : Fin 2) = 0
    ∧ (t.val < 20 → win0_1.xsize (grid0.coords t) (0 : Fin 2) = 5000)
    ∧ (¬t.val < 20 → win0_1.xsize (grid0.coords t) (0 : Fin 2) = 128)
    ∧ win0_1.xsize (grid0.coords t) (1 : Fin 2) = 256 :=
  (by decide +kernel : ∀ t : Fin grid0.N, _)

/-- What point `t` writes back is block `t`, cut at the array's end, of the operand's rows followed by
    zero rows. -/
theorem flushed_eq (c : Dev nD) (t : Fin cfg0.N) :
    (dat0 V c).flushed 1 t = ((cfg0.win 1).blk t).view.read (Elt F)
      (padRows (zero (F := F)) 100128 (V c main_arg0 : S100000x256.Idx → Elt F .f32)) := by
  show (cfg0.win 1).cut (grid0.coords t) ((dat0 V c).after 1 t) = _
  rw [after0_1]
  obtain ⟨e0, e1, e2, e3, e4a, e4b, e5⟩ := idx_facts t
  have hN : t.val < 21 := lt_of_lt_of_eq t.isLt N_0
  funext j
  have hj0 : (j 0).val < win0_1.xsize (grid0.coords t) (0 : Fin 2) := (j 0).isLt
  have hj1 : (j 1).val < win0_1.xsize (grid0.coords t) (1 : Fin 2) := (j 1).isLt
  rw [e5] at hj1
  have hb : (t.val < 20 → (j 0).val < 5000) ∧ (¬t.val < 20 → (j 0).val < 128) :=
    ⟨fun h => by rw [e4a h] at hj0; exact hj0, fun h => by rw [e4b h] at hj0; exact hj0⟩
  have hrowN : 5000 * t.val + (j 0).val < 100128 := by
    rcases Nat.lt_or_ge t.val 20 with h | h
    · have := hb.1 h; omega
    · have := hb.2 (by omega); omega
  have hout : ((cfg0.win 1).blk t).view.emb j
      = ix2 (⟨5000 * t.val + (j 0).val, hrowN⟩ : Fin 100128) (⟨(j 1).val, hj1⟩ : Fin 256) := by
    funext a; apply Fin.ext
    match a with
    | ⟨0, _⟩ => show win0_1.index t (0 : Fin 2) * 5000 + 1 * (j 0).val = 5000 * t.val + (j 0).val; omega
    | ⟨1, _⟩ => show win0_1.index t (1 : Fin 2) * 256 + 1 * (j 1).val = (j 1).val; omega
  by_cases ht : t.val < 20
  · have hv : outsAt0 V c t.val t.isLt = iblk0 V c 0 t :=
      (outsAt0_A V c t ht (by omega)).trans (copied c _ _ _ _ _ _ _ _)
    rw [hv]
    have hjr := hb.1 ht
    have hrow : 5000 * t.val + (j 0).val < 100000 := by omega
    have hin : ((cfg0.win 0).blk t).view.emb ((cfg0.win 1).xinj (grid0.coords t) j)
        = ix2 (⟨5000 * t.val + (j 0).val, hrow⟩ : Fin 100000) (⟨(j 1).val, hj1⟩ : Fin 256) := by
      funext a; apply Fin.ext
      match a with
      | ⟨0, _⟩ => show win0_0.index t (0 : Fin 2) * 5000 + 1 * (j 0).val = 5000 * t.val + (j 0).val; omega
      | ⟨1, _⟩ => show win0_0.index t (1 : Fin 2) * 256 + 1 * (j 1).val = (j 1).val; omega
    show (V c main_arg0 : S100000x256.Idx → Elt F .f32) (((cfg0.win 0).blk t).view.emb ((cfg0.win 1).xinj (grid0.coords t) j))
        = padRows (zero (F := F)) 100128 (V c main_arg0 : S100000x256.Idx → Elt F .f32) (((cfg0.win 1).blk t).view.emb j)
    rw [hout, hin, padRows_of_lt _ _ _ _ _ hrow]
  · have hv : outsAt0 V c t.val t.isLt = fun _ => zero :=
      (outsAt0_B V c t ht (by omega)).trans (zeroed c _ _ _ _ _ _ _ _)
    rw [hv]
    show (zero (F := F)) = padRows (zero (F := F)) 100128 (V c main_arg0 : S100000x256.Idx → Elt F .f32) (((cfg0.win 1).blk t).view.emb j)
    rw [hout, padRows_of_ge _ _ _ _ _ (by show 100000 ≤ 5000 * t.val + (j 0).val; omega)]

/-- An index of the array is in point `t`'s cut block iff each coordinate is in the cut block's range on its
    axis. -/
theorem mem_blk (t : Fin cfg0.N) (i : S100128x256.Idx) :
    i ∈ ((cfg0.win 1).blk t).view.set ↔ ∀ a : Fin 2, win0_1.index t a * S5000x256.size a ≤ (i a).val
      ∧ (i a).val < win0_1.index t a * S5000x256.size a + win0_1.xsize (grid0.coords t) a := by
  show i ∈ ((View.whole main_v0).slice (win0_1.rect t)).set ↔ _
  rw [View.set_slice_whole, Rect.mem_set_unit]
  exact Iff.rfl

/-- Every row is in the cut block of the point its row number divided by 5000 names: rows below 100000 in
    one of the twenty whole blocks, the last 128 rows in the leading part of the twenty-first. -/
theorem cover (i : S100128x256.Idx) :
    ∃ t : Fin cfg0.N, (cfg0.win 1).flush t = true ∧ i ∈ ((cfg0.win 1).blk t).view.set := by
  have hi0 : (i 0).val < 100128 := (i 0).isLt
  have hi1 : (i 1).val < 256 := (i 1).isLt
  obtain ⟨t, ht⟩ : ∃ t : Fin cfg0.N, t.val = (i 0).val / 5000 :=
    ⟨⟨(i 0).val / 5000, by rw [show cfg0.N = 21 from N_0]; omega⟩, rfl⟩
  obtain ⟨e0, e1, -, -, e4a, e4b, e5⟩ := idx_facts t
  refine ⟨t, flush0_1 t, ?_⟩
  rw [mem_blk]
  intro a
  match a with
  | ⟨0, _⟩ =>
    show win0_1.index t (0 : Fin 2) * 5000 ≤ (i 0).val
      ∧ (i 0).val < win0_1.index t (0 : Fin 2) * 5000 + win0_1.xsize (grid0.coords t) (0 : Fin 2)
    rcases Nat.lt_or_ge t.val 20 with h | h
    · rw [e4a h]; omega
    · rw [e4b (by omega)]; omega
  | ⟨1, _⟩ =>
    show win0_1.index t (1 : Fin 2) * 256 ≤ (i 1).val
      ∧ (i 1).val < win0_1.index t (1 : Fin 2) * 256 + win0_1.xsize (grid0.coords t) (1 : Fin 2)
    rw [e5]; omega

/-- The output array after the region: the operand's rows, then zero rows. -/
theorem final (c : Dev nD) :
    (dat0 V c).arrAt 1 cfg0.N = padRows (zero (F := F)) 100128 (V c main_arg0 : S100000x256.Idx → Elt F .f32) :=
  (dat0 V c).arrAt_eq_of_cover 1 _ (fun t _ => flushed_eq V c t) cover

end Cert.KernelIdeal.NodeRegion

end
-- ==== Proof.EdgeAttrRegion.lean ====
/-
  What the second copy-or-zero region leaves in its output array, as one function of its input array.

  The region walks 165 blocks of 5000 packed rows. At a point before the 160th the body stores the input
  block it loaded; from the 160th on it stores the zero block. Output block `t` covers rows
  `5000 t … 5000 t + 4999`, and for `t < 160` the input block fetched there covers the same rows of the
  800000-row operand (the clamped index `min t 159` is `t` itself). So what point `t` writes back is block
  `t` of the operand's rows followed by zero rows, the blocks tile all 825000 rows, and the array ends
  holding exactly that padded array.
-/
import proofs.«128870_j19146964205613_2_alg».proof.Proof.Gen.KernelIdeal.Frame
import proofs.«128870_j19146964205613_2_alg».proof.Proof.PadSpec
import Idealize.ShloMosaic.Lib.Pipeline.Value
import Idealize.ShloMosaic.Lib.Tactic

set_option maxRecDepth 16384

noncomputable section

namespace Cert.KernelIdeal.EdgeAttrRegion

open Cert.KernelIdeal Cert.KernelIdeal.Gen Cert.PadSpec
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The word the appended rows hold: `+0.0`. -/
abbrev zero : F .f32 := Scalar.ofBits .f32 0x00000000#32

/-- Before the boundary the body leaves the input block in the output's staging buffer: its one store
    covers the buffer and its payload is the whole-buffer load, recast to its own shape. -/
theorem copied (c : Dev nD) (i : grid1.Coords) (a1 : Memref sig .tc .vmem S5000x128 .f32) (h1 : a1.IsWhole)
    (a2 : Memref sig .tc .vmem S5000x128 .f32) (h2 : a2.IsWhole) (hc0 : cond1_0 i) (hc1 : ¬cond1_1 i)
    (x : Vec F S5000x128 .f32) : out1_A_1 c i a1 h1 a2 h2 hc0 hc1 x = x := by
  unfold out1_A_1
  rw [View.read_writes_eq_canon _ _ _ (cover1_A_1 c i a1 h1 a2 h2 hc0 hc1 x)]
  unfold kernelRun1_A
  dsimp only
  rw [View.canon_unit_zero hz]
  unfold k1_pay1
  simp only [View.readAt_eq_ld, h1.read_unread, View.ld_unit_zero (S := S5000x128) hz, shapeCast_self]

/-- From the boundary on the body leaves the zero block. -/
theorem zeroed (c : Dev nD) (i : grid1.Coords) (a1 : Memref sig .tc .vmem S5000x128 .f32) (h1 : a1.IsWhole)
    (a2 : Memref sig .tc .vmem S5000x128 .f32) (h2 : a2.IsWhole) (hc0 : ¬cond1_0 i) (hc1 : cond1_1 i)
    (x : Vec F S5000x128 .f32) : out1_B_1 c i a1 h1 a2 h2 hc0 hc1 x = fun _ => zero := by
  unfold out1_B_1
  rw [View.read_writes_eq_canon _ _ _ (cover1_B_1 c i a1 h1 a2 h2 hc0 hc1 x)]
  unfold kernelRun1_B
  dsimp only
  rw [View.canon_unit_zero hz]
  rfl

/-- The index maps over the grid: output block `t` is block `t`; the input block is block `min t 159`;
    neither moves along the lanes. -/
theorem idx_facts : ∀ t : Fin cfg1.N, win1_1.index t (0 : Fin 2) = t.val ∧ win1_1.index t (1 : Fin 2) = 0
    ∧ win1_0.index t (0 : Fin 2) = min t.val 159 ∧ win1_0.index t (1 : Fin 2) = 0 :=
  (by decide +kernel : ∀ t : Fin grid1.N, _)

/-- What point `t` writes back is block `t` of the operand's rows followed by zero rows. -/
theorem flushed_eq (c : Dev nD) (t : Fin cfg1.N) :
    (dat1 V c).flushed 1 t = ((cfg1.win 1).blk t).view.read (Elt F)
      (padRows (zero (F := F)) 825000 (V c main_v1 : S800000x128.Idx → Elt F .f32)) := by
  show (cfg1.win 1).cut (grid1.coords t) ((dat1 V c).after 1 t) = _
  rw [after1_1]
  obtain ⟨e0, e1, e2, e3⟩ := idx_facts t
  have hN : t.val < 165 := lt_of_lt_of_eq t.isLt N_1
  funext j
  have hj0 : (j 0).val < 5000 := (j 0).isLt
  have hj1 : (j 1).val < 128 := (j 1).isLt
  have hout : ((cfg1.win 1).blk t).view.emb j
      = ix2 (⟨5000 * t.val + (j 0).val, by omega⟩ : Fin 825000) (⟨(j 1).val, hj1⟩ : Fin 128) := by
    funext a; apply Fin.ext
    match a with
    | ⟨0, _⟩ => show win1_1.index t (0 : Fin 2) * 5000 + 1 * (j 0).val = 5000 * t.val + (j 0).val; omega
    | ⟨1, _⟩ => show win1_1.index t (1 : Fin 2) * 128 + 1 * (j 1).val = (j 1).val; omega
  by_cases ht : t.val < 160
  · have hv : outsAt1 V c t.val t.isLt = iblk1 V c 0 t :=
      (outsAt1_A V c t ht (by omega)).trans (copied c _ _ _ _ _ _ _ _)
    rw [hv]
    have hrow : 5000 * t.val + (j 0).val < 800000 := by omega
    have hin : ((cfg1.win 0).blk t).view.emb j
        = ix2 (⟨5000 * t.val + (j 0).val, hrow⟩ : Fin 800000) (⟨(j 1).val, hj1⟩ : Fin 128) := by
      funext a; apply Fin.ext
      match a with
      | ⟨0, _⟩ => show win1_0.index t (0 : Fin 2) * 5000 + 1 * (j 0).val = 5000 * t.val + (j 0).val; omega
      | ⟨1, _⟩ => show win1_0.index t (1 : Fin 2) * 128 + 1 * (j 1).val = (j 1).val; omega
    show (V c main_v1 : S800000x128.Idx → Elt F .f32) (((cfg1.win 0).blk t).view.emb j)
        = padRows (zero (F := F)) 825000 (V c main_v1 : S800000x128.Idx → Elt F .f32) (((cfg1.win 1).blk t).view.emb j)
    rw [hout, hin, padRows_of_lt _ _ _ _ _ hrow]
  · have hv : outsAt1 V c t.val t.isLt = fun _ => zero :=
      (outsAt1_B V c t ht (by omega)).trans (zeroed c _ _ _ _ _ _ _ _)
    rw [hv]
    show (zero (F := F)) = padRows (zero (F := F)) 825000 (V c main_v1 : S800000x128.Idx → Elt F .f32) (((cfg1.win 1).blk t).view.emb j)
    rw [hout, padRows_of_ge _ _ _ _ _ (by show 800000 ≤ 5000 * t.val + (j 0).val; omega)]

/-- An index of the array is in point `t`'s block iff each coordinate is in the block's range on its axis. -/
theorem mem_blk (t : Fin cfg1.N) (i : S825000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v2).slice (win1_1.rect t)).set ↔ _
  rw [View.set_slice_whole, Rect.mem_set_unit]
  exact Iff.rfl

/-- Every row is in the block of the point its row number divided by 5000 names. -/
theorem cover (i : S825000x128.Idx) :
    ∃ t : Fin cfg1.N, (cfg1.win 1).flush t = true ∧ i ∈ ((cfg1.win 1).blk t).view.set := by
  have hi0 : (i 0).val < 825000 := (i 0).isLt
  have hi1 : (i 1).val < 128 := (i 1).isLt
  obtain ⟨t, ht⟩ : ∃ t : Fin cfg1.N, t.val = (i 0).val / 5000 :=
    ⟨⟨(i 0).val / 5000, by rw [show cfg1.N = 165 from N_1]; omega⟩, rfl⟩
  obtain ⟨e0, e1, -, -⟩ := idx_facts t
  refine ⟨t, flush1_1 t, ?_⟩
  rw [mem_blk]
  intro a
  match a with
  | ⟨0, _⟩ =>
    show win1_1.index t (0 : Fin 2) * 5000 ≤ (i 0).val ∧ (i 0).val < win1_1.index t (0 : Fin 2) * 5000 + 5000
    omega
  | ⟨1, _⟩ =>
    show win1_1.index t (1 : Fin 2) * 128 ≤ (i 1).val ∧ (i 1).val < win1_1.index t (1 : Fin 2) * 128 + 128
    omega

/-- The output array after the region: the operand's rows, then zero rows. -/
theorem final (c : Dev nD) :
    (dat1 V c).arrAt 1 cfg1.N = padRows (zero (F := F)) 825000 (V c main_v1 : S800000x128.Idx → Elt F .f32) :=
  (dat1 V c).arrAt_eq_of_cover 1 _ (fun t _ => flushed_eq V c t) cover

end Cert.KernelIdeal.EdgeAttrRegion

end
-- ==== Proof.KernelResults.lean ====
/-
  The idealized kernel's four results as functions of its arguments.

  The last boundary's contents are a fold from the launch memory: the first region, one reshape, the second
  region, then the integer glue and the closing reshape. Reading each result buffer back through that fold:

  * the padded node features are the first region's output array, which no later segment writes;
  * the padded edge attributes are the closing reshape of the second region's output array, whose input is
    the reshape of the edge attributes to 128 lanes — packing, padding the packed rows, and unpacking is
    padding the rows themselves (`PadSpec.unpack_padRows_pack`);
  * the new edge index and the new batch vector are the integer glue applied to `edge_index` and `batch`,
    which every earlier segment leaves as launched.
-/
import proofs.«128870_j19146964205613_2_alg».proof.Proof.Gen.KernelIdeal.Frame
import proofs.«128870_j19146964205613_2_alg».proof.Proof.PadSpec
import proofs.«128870_j19146964205613_2_alg».proof.Proof.NodeRegion
import proofs.«128870_j19146964205613_2_alg».proof.Proof.EdgeAttrRegion
import Idealize.ShloMosaic.Lib.StableHlo.Run

set_option maxRecDepth 16384

noncomputable section

namespace Cert.KernelIdeal.Results

open Cert.KernelIdeal Cert.KernelIdeal.Gen Cert.PadSpec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The word the appended rows hold: `+0.0`. -/
abbrev zero : F .f32 := Scalar.ofBits .f32 0x00000000#32

/-- The integer glue's new edge index: `edge_index` with the columns `(node, 100000 + batch[node])` appended. -/
def edgeIndexTerm (e : S2x3200000.Idx → Elt F .i32) (b : S100000.Idx → Elt F .i32) : S2x3300000.Idx → Elt F .i32 :=
  concatenate S2x3300000 1 [⟨S2x3200000, e⟩, ⟨S2x100000, (concatenate S2x100000 0
    [⟨S1x100000, (broadcastInDim S1x100000 ![1] bcast_S100000_S1x100000_1 (iotaInDim S100000 32 0))⟩,
     ⟨S1x100000, (broadcastInDim S1x100000 ![1] bcast_S100000_S1x100000_1
        (addi (broadcastInDim S100000 ![] bcast_S_S100000 (constantI S_ 32 100000#32)) b))⟩]
    concatenates_S1x100000_S1x100000_S2x100000_d0)⟩] concatenates_S2x3200000_S2x100000_S2x3300000_d1

/-- The integer glue's new batch vector: `batch` with the graph ids `0 … 127` appended. -/
def batchTerm (b : S100000.Idx → Elt F .i32) : S100128.Idx → Elt F .i32 :=
  concatenate S100128 0 [⟨S100000, b⟩, ⟨S128, (iotaInDim S128 32 0)⟩] concatenates_S100000_S128_S100128_d0

/-! ## The arguments at the inner boundaries -/

/-- The first region does not touch the edge attributes. -/
theorem W1_arg2 (c : Dev nD) : W1 m ρ c (Proc.devRef .tc main_arg2) = m ((c : Thread nD τ).loc main_arg2) :=
  W1_of_ne m ρ c main_arg2 (by decide)

/-- Neither region nor the reshape between them touches `edge_index`. -/
theorem W3_arg1 (c : Dev nD) : W3 m ρ c (Proc.devRef .tc main_arg1) = m ((c : Thread nD τ).loc main_arg1) := by
  have h32 : W3 m ρ c (Proc.devRef .tc main_arg1) = W2 m ρ c (Proc.devRef .tc main_arg1) :=
    W3_of_ne m ρ c main_arg1 (by decide)
  have h21 : W2 m ρ c (Proc.devRef .tc main_arg1) = W1 m ρ c (Proc.devRef .tc main_arg1) := by
    show StableHlo.after hostOps1 (W1 m ρ c) (Proc.devRef .tc main_arg1) = _
    dsimp only [hostOps1]; after_results
  exact h32.trans (h21.trans (W1_of_ne m ρ c main_arg1 (by decide)))

/-- Neither region nor the reshape between them touches `batch`. -/
theorem W3_arg3 (c : Dev nD) : W3 m ρ c (Proc.devRef .tc main_arg3) = m ((c : Thread nD τ).loc main_arg3) := by
  have h32 : W3 m ρ c (Proc.devRef .tc main_arg3) = W2 m ρ c (Proc.devRef .tc main_arg3) :=
    W3_of_ne m ρ c main_arg3 (by decide)
  have h21 : W2 m ρ c (Proc.devRef .tc main_arg3) = W1 m ρ c (Proc.devRef .tc main_arg3) := by
    show StableHlo.after hostOps1 (W1 m ρ c) (Proc.devRef .tc main_arg3) = _
    dsimp only [hostOps1]; after_results
  exact h32.trans (h21.trans (W1_of_ne m ρ c main_arg3 (by decide)))

/-! ## The four results -/

/-- The padded node features: the first region's output array, untouched afterwards. -/
theorem new_x (c : Dev nD) : W4 m ρ c (Proc.devRef .tc main_v0)
    = padRows (zero (F := F)) 100128 (m ((c : Thread nD τ).loc main_arg0) : S100000x256.Idx → Elt F .f32) := by
  have h43 : W4 m ρ c (Proc.devRef .tc main_v0) = W3 m ρ c (Proc.devRef .tc main_v0) := by
    show StableHlo.after hostOps2 (W3 m ρ c) (Proc.devRef .tc main_v0) = _
    dsimp only [hostOps2]; after_results
  have h32 : W3 m ρ c (Proc.devRef .tc main_v0) = W2 m ρ c (Proc.devRef .tc main_v0) :=
    W3_of_ne m ρ c main_v0 (by decide)
  have h21 : W2 m ρ c (Proc.devRef .tc main_v0) = W1 m ρ c (Proc.devRef .tc main_v0) := by
    show StableHlo.after hostOps1 (W1 m ρ c) (Proc.devRef .tc main_v0) = _
    dsimp only [hostOps1]; after_results
  exact h43.trans (h32.trans (h21.trans ((W1_arr m ρ c 1).trans (NodeRegion.final (V0 m ρ) c))))

/-- The padded edge attributes: the second region's padded packed rows, unpacked. -/
theorem new_edge_attr (c : Dev nD) : W4 m ρ c (Proc.devRef .tc main_v3)
    = padRows (zero (F := F)) 3300000 (m ((c : Thread nD τ).loc main_arg2) : S3200000x32.Idx → Elt F .f32) := by
  have h4 : W4 m ρ c (Proc.devRef .tc main_v3)
      = shapeCast S3300000x32 (W3 m ρ c (Proc.devRef .tc main_v2) : S825000x128.Idx → Elt F .f32)
          shapeCasts_S825000x128_S3300000x32 := by
    show StableHlo.after hostOps2 (W3 m ρ c) (Proc.devRef .tc main_v3) = _
    dsimp only [hostOps2]; after_results; rfl
  have h3 : (W3 m ρ c (Proc.devRef .tc main_v2) : S825000x128.Idx → Elt F .f32)
      = padRows (zero (F := F)) 825000 (V2 m ρ c main_v1 : S800000x128.Idx → Elt F .f32) :=
    (W3_arr m ρ c 1).trans (EdgeAttrRegion.final (V2 m ρ) c)
  have h2 : (V2 m ρ c main_v1 : S800000x128.Idx → Elt F .f32)
      = shapeCast S800000x128 (m ((c : Thread nD τ).loc main_arg2) : S3200000x32.Idx → Elt F .f32)
          shapeCasts_S3200000x32_S800000x128 := by
    show StableHlo.after hostOps1 (W1 m ρ c) (Proc.devRef .tc main_v1) = _
    dsimp only [hostOps1]; after_results
    rw [W1_arg2]; rfl
  rw [h4, h3, h2]
  exact unpack_padRows_pack zero _ _ _

/-- The new edge index: the integer glue of `edge_index` and `batch` as launched. -/
theorem new_edge_index (c : Dev nD) : W4 m ρ c (Proc.devRef .tc main_v10)
    = edgeIndexTerm (F := F) (m ((c : Thread nD τ).loc main_arg1)) (m ((c : Thread nD τ).loc main_arg3)) := by
  show StableHlo.after hostOps2 (W3 m ρ c) (Proc.devRef .tc main_v10) = _
  dsimp only [hostOps2]; after_results
  rw [W3_arg1, W3_arg3]; rfl

/-- The new batch vector: the integer glue of `batch` as launched. -/
theorem new_batch (c : Dev nD) : W4 m ρ c (Proc.devRef .tc main_v12)
    = batchTerm (F := F) (m ((c : Thread nD τ).loc main_arg3)) := by
  show StableHlo.after hostOps2 (W3 m ρ c) (Proc.devRef .tc main_v12) = _
  dsimp only [hostOps2]; after_results
  rw [W3_arg3]; rfl

end Cert.KernelIdeal.Results

end
-- ==== Proof.RefValue.lean ====
/-
  The reference's two float results as padded arrays.

  `jnp.concatenate([x, zeros])` along the rows is the rows of `x` followed by rows of the zero word: the
  appended block is a broadcast of the zero constant, so every element of it is that word
  (`PadSpec.concatenate_rows_const`).
-/
import proofs.«128870_j19146964205613_2_alg».proof.Proof.Gen.ReferenceIdeal.Read
import proofs.«128870_j19146964205613_2_alg».proof.Proof.LibPadRows
import Idealize.ShloMosaic.Lib.Pipeline.Value

noncomputable section

namespace Cert.ReferenceIdeal.RefValue

open Cert.ReferenceIdeal Cert.ReferenceIdeal.Gen Cert.PadSpec
open Idealize.ShloMosaic Idealize.ShloMosaic.ValueIdx

variable {F : FTy → Type} [FloatOps F]

/-- The word the appended rows hold: `+0.0`. -/
abbrev zero : F .f32 := FloatOps.ofBits .f32 0x00000000#32

/-- The node features with 128 zero rows appended. -/
theorem nodes_eq (x0 : S100000x256.Idx → Elt F .f32) :
    Read.val_main_v1 (F := F) x0 = padRows (zero (F := F)) 100128 x0 := by
  unfold Read.val_main_v1
  exact concatenate_rows_const (zero (F := F)) (n := 100000) (k := 128) (c := 256) (n' := 100128) rfl x0
    (Read.val_main_v0 (F := F)) (fun i => by rw [Read.val_main_v0_apply, Read.val_main_cst_apply])
    concatenates_S100000x256_S128x256_S100128x256_d0

/-- The edge attributes with 100000 zero rows appended. -/
theorem edge_attr_eq (x2 : S3200000x32.Idx → Elt F .f32) :
    Read.val_main_v10 (F := F) x2 = padRows (zero (F := F)) 3300000 x2 := by
  unfold Read.val_main_v10
  exact concatenate_rows_const (zero (F := F)) (n := 3200000) (k := 100000) (c := 32) (n' := 3300000) rfl x2
    (Read.val_main_v9 (F := F)) (fun i => by rw [Read.val_main_v9_apply, Read.val_main_cst_0_apply])
    concatenates_S3200000x32_S100000x32_S3300000x32_d0

end Cert.ReferenceIdeal.RefValue

end
-- ==== Proof.lean ====
/-
  The certificate of the virtual-node pooler: a Pallas kernel that appends one zero-feature node per graph
  against its `jnp.concatenate` reference.

  Both programs are pure data movement. The kernel writes the padded node features in one pass — 21 blocks
  of 5000 rows, copied before the boundary and zero at the last, whose overhang is cut at the array's end —
  and the padded edge attributes in one pass over a lane-dense view (four rows of width 32 packed into one
  of width 128; 165 blocks, copied before the 160th and zero from it on), then unpacks; the reference
  concatenates each operand with a zero block. At the ideal instance both leave, index by index, the
  operand's rows followed by rows of the zero word (`PadSpec.padRows`): no arithmetic is done on any float,
  so the precondition is never opened. The new edge index and the new batch vector are computed by the same
  integer operations of `edge_index` and `batch` in both programs.

  The frames of the two kernel programs are the generated ones; the reference's frame is its generated run
  with the results dropped. The idealization rewrote no operation, so `preserves` is `True`.
-/
import proofs.«128870_j19146964205613_2_alg».proof.Defs
import proofs.«128870_j19146964205613_2_alg».proof.Proof.Gen.Kernel
import proofs.«128870_j19146964205613_2_alg».proof.Proof.Gen.Kernel.Skeleton
import proofs.«128870_j19146964205613_2_alg».proof.Proof.Gen.Kernel.Launch
import proofs.«128870_j19146964205613_2_alg».proof.Proof.Gen.Kernel.Points
import proofs.«128870_j19146964205613_2_alg».proof.Proof.Gen.Kernel.Frame
import proofs.«128870_j19146964205613_2_alg».proof.Proof.Gen.KernelIdeal
import proofs.«128870_j19146964205613_2_alg».proof.Proof.Gen.KernelIdeal.Skeleton
import proofs.«128870_j19146964205613_2_alg».proof.Proof.Gen.KernelIdeal.Launch
import proofs.«128870_j19146964205613_2_alg».proof.Proof.Gen.KernelIdeal.Points
import proofs.«128870_j19146964205613_2_alg».proof.Proof.Gen.KernelIdeal.Frame
import proofs.«128870_j19146964205613_2_alg».proof.Proof.Gen.ReferenceIdeal
import proofs.«128870_j19146964205613_2_alg».proof.Proof.Gen.ReferenceIdeal.Run
import proofs.«128870_j19146964205613_2_alg».proof.Proof.Gen.ReferenceIdeal.Read
import proofs.«128870_j19146964205613_2_alg».proof.Proof.Gen.Pre_finite_inputs
import proofs.«128870_j19146964205613_2_alg».proof.Proof.PadSpec
import proofs.«128870_j19146964205613_2_alg».proof.Proof.NamedRun
import proofs.«128870_j19146964205613_2_alg».proof.Proof.KernelResults
import proofs.«128870_j19146964205613_2_alg».proof.Proof.RefValue
import Idealize.ShloMosaic.Adequacy
import Idealize.ShloMosaic.Init

noncomputable section

namespace Cert.Proof

open Idealize.ShloMosaic Idealize.ShloMosaic.TcCoe Idealize.SL.Sem Cert.PadSpec

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments both programs end with: the node features followed by 128 zero
    rows; the integer glue's edge index; the edge attributes followed by 100000 zero rows; the integer
    glue's batch vector — and their arguments as launched. -/
theorem algebraic : Cert.algebraic_KernelIdeal_ReferenceIdeal := by
  intro m ρ m' ρ' _ hagree
  refine ⟨fun c => padRows (Cert.KernelIdeal.Results.zero (F := Ideal)) 100128
            (m ((c.tc : Thread Cert.KernelIdeal.nD Cert.KernelIdeal.τ).loc Cert.KernelIdeal.main_arg0) : Cert.KernelIdeal.S100000x256.Idx → Elt Ideal .f32),
          fun c => Cert.KernelIdeal.Results.edgeIndexTerm (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3)),
          fun c => padRows (Cert.KernelIdeal.Results.zero (F := Ideal)) 3300000
            (m ((c.tc : Thread Cert.KernelIdeal.nD Cert.KernelIdeal.τ).loc Cert.KernelIdeal.main_arg2) : Cert.KernelIdeal.S3200000x32.Idx → Elt Ideal .f32),
          fun c => Cert.KernelIdeal.Results.batchTerm (F := Ideal)
            (m ((c.tc : Thread Cert.KernelIdeal.nD Cert.KernelIdeal.τ).loc Cert.KernelIdeal.main_arg3)),
          ?_, ?_⟩
  · -- the kernel: every buffer at the last boundary's contents, each result read back through the fold
    refine (θ_run Cert.KernelIdeal.defs _ _).mono (fun r h c => ?_) (Cert.KernelIdeal.Named.run_all (F := Ideal) m ρ)
    exact ⟨(h c Cert.KernelIdeal.main_v0 (by decide)).trans (Cert.KernelIdeal.Results.new_x m ρ c),
      (h c Cert.KernelIdeal.main_v10 (by decide)).trans (Cert.KernelIdeal.Results.new_edge_index m ρ c),
      (h c Cert.KernelIdeal.main_v3 (by decide)).trans (Cert.KernelIdeal.Results.new_edge_attr m ρ c),
      (h c Cert.KernelIdeal.main_v12 (by decide)).trans (Cert.KernelIdeal.Results.new_batch m ρ c),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c),
      (h c Cert.KernelIdeal.main_arg3 (by decide)).trans (Cert.KernelIdeal.Gen.W4_main_arg3 m ρ c)⟩
  · -- the reference: each concatenation read as a padded array, the arguments' agreement rewritten
    refine (θ_run Cert.ReferenceIdeal.defs _ _).mono (fun r h c => ?_) (Cert.ReferenceIdeal.Value.run (F := Ideal) m' ρ')
    obtain ⟨h1, h8, h10, h12, ha⟩ := h c
    obtain ⟨g0, g1, g2, g3⟩ := hagree c
    refine ⟨?_, ?_, ?_, ?_, ha⟩
    · exact h1.trans (((Cert.ReferenceIdeal.Read.val_main_v1_eq _).trans (Cert.ReferenceIdeal.RefValue.nodes_eq _)).trans (by rw [g0]))
    · rw [g1, g3] at h8; exact h8
    · exact h10.trans (((Cert.ReferenceIdeal.Read.val_main_v10_eq _).trans (Cert.ReferenceIdeal.RefValue.edge_attr_eq _)).trans (by rw [g2]))
    · rw [g3] at h12; exact h12

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
